-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S2x1024 : Shape := ⟨2, ![2, 1024]⟩
abbrev S2048x1024 : Shape := ⟨2, ![2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg1 : IVec S4x2048 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S4x2048 32 := broadcastInDim S4x2048 ![] bcast_S_S4x2048 main_c_8
  let main_v25 : IVec S4x2048 1 := cmpi .sge main_arg1 main_v24
  let main_c_9 : IVec S_ 32 := constantI S_ 32 2#32
  let main_v26 : IVec S4x2048 32 := broadcastInDim S4x2048 ![] bcast_S_S4x2048 main_c_9
  let main_v27 : IVec S4x2048 1 := cmpi .slt main_arg1 main_v26
  let main_v28 : IVec S4x2048 1 := andi main_v25 main_v27
  let main_c_10 : IVec S_ 1 := constantI S_ 1 1#1
  let main_v29 : IVec S_ 1 := (fun x v => Host.reduce IntOp.andi x v reducesTo_S4x2048_S_d0_1 h_S_) main_v28 main_c_10
  let main_v30 : IVec S_ 1 := andi main_v23 main_v29
  main_v30

def fn {F : FTy → Type} [FloatOps F] (main_arg0 : FVec F S4x2048x1024 .f32) (main_arg1 : IVec S4x2048 32) (main_arg2 : FVec F S2x1024 .f32) (main_arg3 : FVec F S2048x1024 .f32) (main_arg4 : FVec F S1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S4x2048x1024 : Shape := ⟨3, ![4, 2048, 1024]⟩
abbrev S4x2048 : Shape := ⟨2, ![4, 2048]⟩
abbrev S2x1024 : Shape := ⟨2, ![2, 1024]⟩
abbrev S2048x1024 : Shape := ⟨2, ![2048, 1024]⟩
abbrev S1024 : Shape := ⟨1, ![1024]⟩
abbrev S4x512x1024 : Shape := ⟨3, ![4, 512, 1024]⟩
abbrev S4x512 : Shape := ⟨2, ![4, 512]⟩
abbrev S512x1024 : Shape := ⟨2, ![512, 1024]⟩
abbrev S1x1024 : Shape := ⟨2, ![1, 1024]⟩
abbrev S1x512x1024 : Shape := ⟨3, ![1, 512, 1024]⟩
abbrev S1x1x1024 : Shape := ⟨3, ![1, 1, 1024]⟩
abbrev S4x512x1 : Shape := ⟨3, ![4, 512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S2x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S4x2048, .f32⟩
  | .hbm, ⟨7, _⟩ => ⟨S4x2048x1024, .f32⟩
  | .local _ .vmem, ⟨0, _⟩ => ⟨S4x512x1024, .f32⟩
  | .local _ .vmem, ⟨1, _⟩ => ⟨S4x512x1024, .f32⟩
  | .local _ .vmem, ⟨2, _⟩ => ⟨S4x512, .f32⟩
  | .local _ .vmem, ⟨3, _⟩ => ⟨S4x512, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S1024, .f32⟩
  | .local _ .vmem, ⟨8, _⟩ => ⟨S1024, .f32⟩
  | .local _ .vmem, ⟨9, _⟩ => ⟨S4x512x1024, .f32⟩
  | .local _ .vmem, ⟨10, _⟩ => ⟨S4x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  inb_S2x1024_S1x1024_1_0 : ∀ a, (![1, 0] : Fin 2 → Nat) a + S1x1024.size a ≤ S2x1024.size a
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  shapeCasts_S1024_S1x1x1024 : S1024.ShapeCasts S1x1x1024
  shapeCasts_S4x512_S4x512x1 : S4x512.ShapeCasts S4x512x1
  broadcasts_S4x512x1_S4x512x1024 : S4x512x1.Broadcasts S4x512x1024
  broadcasts_S1x1x1024_S4x512x1024 : S1x1x1024.Broadcasts S4x512x1024
  reduces_S4x512x1024_S4x512 : S4x512x1024.Reduces [2] S4x512
  inb_S1024_S1024_0 : ∀ a, (![0] : Fin 1 → Nat) a + S1024.size a ≤ S1024.size a
  h_S1024 : 0 < S1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x2048x1024.size a
  hwx0_0 : ∀ i : grid0.Coords, EltTy.bits .f32 = 32 ∨ (Rect.block (s := S4x2048x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x2048.size a
  hwx0_1 : ∀ i : grid0.Coords, EltTy.bits .f32 = 32 ∨ (Rect.block (s := S4x2048) S4x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x1024.size a ≤ S4x2048x1024.size a
  hwx0_6 : ∀ i : grid0.Coords, EltTy.bits .f32 = 32 ∨ (Rect.block (s := S4x2048x1024) S4x512x1024.size (cc0_transform_6 i) (hinb0_6 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S2x1024 : Shape := ⟨2, ![2, 1024]⟩
abbrev S2048x1024 : Shape := ⟨2, ![2048, 1024]⟩
abbrev S1024 : Shape := ⟨1, ![1024]⟩
abbrev S8192 : Shape := ⟨1, ![8192]⟩
abbrev S8192x1 : Shape := ⟨2, ![8192, 1]⟩
abbrev S1x2 : Shape := ⟨2, ![1, 2]⟩
abbrev S8192x2 : Shape := ⟨2, ![8192, 2]⟩
abbrev S8192x1024 : Shape := ⟨2, ![8192, 1024]⟩
abbrev S1x2048x1024 : Shape := ⟨3, ![1, 2048, 1024]⟩
abbrev S_ : Shape := ⟨0, ![]⟩
abbrev S4x2048x1 : Shape := ⟨3, ![4, 2048, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S2x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S8192, .i32⟩
  | .hbm, ⟨7, _⟩ => ⟨S8192x1, .i32⟩
  | .hbm, ⟨8, _⟩ => ⟨S1x2, .i32⟩
  | .hbm, ⟨9, _⟩ => ⟨S8192x2, .i32⟩
  | .hbm, ⟨10, _⟩ => ⟨S8192x2, .i32⟩
  | .hbm, ⟨11, _⟩ => ⟨S8192x2, .i1⟩
  | .hbm, ⟨12, _⟩ => ⟨S8192x2, .f32⟩
  | .hbm, ⟨13, _⟩ => ⟨S8192x1024, .f32⟩
  | .hbm, ⟨14, _⟩ => ⟨S4x2048x1024, .f32⟩
  | .hbm, ⟨15, _⟩ => ⟨S4x2048x1024, .f32⟩
  | .hbm, ⟨16, _⟩ => ⟨S1x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  shapeCasts_S4x2048_S8192 : S4x2048.ShapeCasts S8192
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S1x2_S8192x2_0_1 : S1x2.BroadcastsInDim S8192x2 (![0, 1] : Fin 2 → Fin S8192x2.rank)
  shapeCasts_S8192x1024_S4x2048x1024 : S8192x1024.ShapeCasts S4x2048x1024
  shapeCasts_S2048x1024_S1x2048x1024 : S2048x1024.ShapeCasts S1x2048x1024
  bcast_S1x2048x1024_S4x2048x1024_0_1_2 : S1x2048x1024.BroadcastsInDim S4x2048x1024 (![0, 1, 2] : Fin 3 → Fin S4x2048x1024.rank)
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S8192x2_S2x1024_S8192x1024_1_0_0_1_n_n_wf : DotDims.WF S8192x2 S2x1024 S8192x1024 [1] [0] [0] [1] [] []

variable [Facts₀]

def dot_S8192x2_S2x1024_S8192x1024_1_0_0_1_n_n : DotDims S8192x2 S2x1024 S8192x1024 where
  lhsContracting := [1]
  rhsContracting := [0]
  lhsNonContracting := [0]
  rhsNonContracting := [1]
  lhsBatch := []
  rhsBatch := []
  wf := dot_S8192x2_S2x1024_S8192x1024_1_0_0_1_n_n_wf

class Facts : Prop extends Facts₀ where

variable [Facts]
-- ==== Proof.InputDomain.lean ====
/-
  The precondition, decoded.

  The printed precondition is a conjunction of six whole-array tests, each an `and`-reduction to one bit:
  for the five float arrays, "every entry has absolute value below +∞"; for the integer array of token
  types, "every entry is at least 0 and below 2". Here the one bit being set is unfolded into what it says
  entry by entry: every float entry is a real number (an extended real that is neither infinity), and every
  token type is the word 0 or the word 1.
-/
import proofs.«173393_g56530359550239_cont_9to1_m_589_14_alg».proof.Pre_finite_inputs
import Idealize.ShloMosaic.Lib.ReduceAll
import Idealize.ShloMosaic.PureOps.Ideal

namespace Cert.InputDomain

open Idealize.ShloMosaic
open Cert.Pre_finite_inputs

/-- A shape of rank 0 has exactly one index: there is no coordinate to differ in. -/
instance : Subsingleton S_.Idx := ⟨fun a b => funext fun d => d.elim0⟩

/-- The single-precision pattern with all exponent bits set and no fraction bit denotes +∞. -/
theorem ofBits_inf : Ideal.ofBits .f32 0x7F800000#32 = (⊤ : EReal) := by
  simp [Ideal.ofBits, Ideal.ieee]

/-- An extended real whose absolute value `max x (-x)` is strictly below +∞ is a real number:
    at `⊤` the maximum is `⊤`, at `⊥` it is `-⊥ = ⊤`, and neither is below `⊤`. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  unfold Ideal.cmp at h
  induction x using EReal.rec with
  | bot => simp at h
  | coe r => exact ⟨r, rfl⟩
  | top => simp at h

/-- A 32-bit word that reads, signed, at least 0 and below 2 is the word 0 or the word 1. -/
theorem zero_or_one_of_range (w : BitVec 32)
    (h : IntOp.andi (IntOp.cmpi .sge w 0#32) (IntOp.cmpi .slt w 2#32) = 1#1) : w = 0#32 ∨ w = 1#32 := by
  obtain ⟨h0, h2⟩ := IntOp.andi_eq_one.1 h
  rw [IntOp.cmpi_sge] at h0
  rw [IntOp.cmpi_slt] at h2
  have e0 : (0#32 : BitVec 32).toInt = 0 := by decide
  have e1 : (1#32 : BitVec 32).toInt = 1 := by decide
  have e2 : (2#32 : BitVec 32).toInt = 2 := by decide
  rw [e0] at h0
  rw [e2] at h2
  have hw : w.toInt = 0 ∨ w.toInt = 1 := by omega
  rcases hw with hw | hw
  · exact Or.inl (BitVec.eq_of_toInt_eq (by rw [hw, e0]))
  · exact Or.inr (BitVec.eq_of_toInt_eq (by rw [hw, e1]))

/-- The precondition's one bit, read entry by entry. The conjunction is nested to the left, so the
    integer test is peeled off first and the float tests in reverse order of the arguments. -/
theorem decode [Facts]
    (a0 : FVec Ideal S4x2048x1024 .f32) (a1 : IVec S4x2048 32) (a2 : FVec Ideal S2x1024 .f32)
    (a3 : FVec Ideal S2048x1024 .f32) (a4 a5 : FVec Ideal S1024 .f32)
    (h : fn (F := Ideal) a0 a1 a2 a3 a4 a5 = fun _ => 1#1) :
    (∀ j, ∃ r : ℝ, a0 j = (r : EReal)) ∧ (∀ j, ∃ r : ℝ, a2 j = (r : EReal)) ∧ (∀ j, ∃ r : ℝ, a3 j = (r : EReal))
      ∧ (∀ j, ∃ r : ℝ, a4 j = (r : EReal)) ∧ (∀ j, ∃ r : ℝ, a5 j = (r : EReal)) ∧ (∀ j, a1 j = 0#32 ∨ a1 j = 1#32) := by
  have h0 := congrFun h (fun a => a.elim0 : S_.Idx)
  unfold fn fn_part1 at h0
  dsimp only at h0
  obtain ⟨h0, hI⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  refine ⟨fun j => ?_, fun j => ?_, fun j => ?_, fun j => ?_, fun j => ?_, fun j => ?_⟩
  · exact real_of_abs_lt_inf (a0 j) (Host.reduce_andi_all _ _ _ _ _ h0 j)
  · exact real_of_abs_lt_inf (a2 j) (Host.reduce_andi_all _ _ _ _ _ h2 j)
  · exact real_of_abs_lt_inf (a3 j) (Host.reduce_andi_all _ _ _ _ _ h3 j)
  · exact real_of_abs_lt_inf (a4 j) (Host.reduce_andi_all _ _ _ _ _ h4 j)
  · exact real_of_abs_lt_inf (a5 j) (Host.reduce_andi_all _ _ _ _ _ h5 j)
  · exact zero_or_one_of_range (a1 j) (Host.reduce_andi_all _ _ _ _ _ hI j)

end Cert.InputDomain
-- ==== Proof.KernelRow.lean ====
/-
  The row the kernel body normalises, read at an index.

  Inside one block the body forms, from the loaded blocks `X : [4, 512, 1024]` (input), `P : [512, 1024]` (positions),
  `T0, T1 : [1, 1024]` (the two table rows), `D : [4, 512]` (the ids as floats), the vector
      Y = (X + P[None]) + (T0[None, None] + D[:, :, None] · (T1 − T0)[None, None]).
  Every re-layout in it is a shape cast that only inserts unit axes followed by a broadcast along them, so at the
  index (i, s, k) it reads  (X[i,s,k] + P[s,k]) + (T0[0,k] + D[i,s] · (T1[0,k] − T0[0,k])).
-/
import proofs.«173393_g56530359550239_cont_9to1_m_589_14_alg».proof.Proof.Gen.KernelIdeal.Value
import Idealize.ShloMosaic.Lib.ValueIdx
import Idealize.ShloMosaic.Lib.Pipeline.Value

noncomputable section

namespace Cert.KernelRow

open Cert.KernelIdeal Cert.KernelIdeal.Gen Idealize.ShloMosaic Idealize.ShloMosaic.TcCoe Idealize.ShloMosaic.ValueIdx

/-- A `[512, 1024]` block laid under a new leading unit axis and repeated over the four batch entries, at (i, s, k),
    is the block at (s, k). -/
theorem under_batch (P : Vec Ideal S512x1024 .f32) (i : Fin 4) (s : Fin 512) (k : Fin 1024) :
    (broadcastTo S4x512x1024 (shapeCast S1x512x1024 P shapeCasts_S512x1024_S1x512x1024) broadcasts_S1x512x1024_S4x512x1024) (ix3 i s k)
      = P (ix2 s k) := by
  refine (broadcastTo_apply _ _ (ix3 i s k) (ix3 (0 : Fin 1) s k) (fun a => match a with
    | ⟨0, _⟩ => by show 0 = (if (1 : Nat) = 1 then 0 else i.val); rw [if_pos rfl]
    | ⟨1, _⟩ => by show s.val = (if (512 : Nat) = 1 then 0 else s.val); rw [if_neg (by decide)]
    | ⟨2, _⟩ => by show k.val = (if (1024 : Nat) = 1 then 0 else k.val); rw [if_neg (by decide)])).trans ?_
  exact shapeCast_apply _ _ (ix3 (0 : Fin 1) s k) (ix2 s k)
    (by rw [Shape.rowMajor_val_two, Shape.rowMajor_val_three]; show s.val * 1024 + k.val = (0 * 512 + s.val) * 1024 + k.val; omega)

/-- A `[1024]` vector laid along the last axis and repeated over batch and sequence, at (i, s, k), is its entry k. -/
theorem along_lanes (v : FVec Ideal S1024 .f32) (i : Fin 4) (s : Fin 512) (k : Fin 1024) :
    (broadcastTo S4x512x1024 (shapeCast S1x1x1024 v shapeCasts_S1024_S1x1x1024) broadcasts_S1x1x1024_S4x512x1024) (ix3 i s k)
      = v (ix1 k) := by
  refine (broadcastTo_apply _ _ (ix3 i s k) (ix3 (0 : Fin 1) (0 : Fin 1) k) (fun a => match a with
    | ⟨0, _⟩ => by show 0 = (if (1 : Nat) = 1 then 0 else i.val); rw [if_pos rfl]
    | ⟨1, _⟩ => by show 0 = (if (1 : Nat) = 1 then 0 else s.val); rw [if_pos rfl]
    | ⟨2, _⟩ => by show k.val = (if (1024 : Nat) = 1 then 0 else k.val); rw [if_neg (by decide)])).trans ?_
  exact shapeCast_apply _ _ (ix3 (0 : Fin 1) (0 : Fin 1) k) (ix1 k)
    (by rw [Shape.rowMajor_val_one, Shape.rowMajor_val_three]; show k.val = (0 * 1 + 0) * 1024 + k.val; omega)

/-- A `[4, 512]` matrix given a trailing unit axis and repeated along the lanes, at (i, s, k), is its entry (i, s). -/
theorem across_lanes (d : FVec Ideal S4x512 .f32) (i : Fin 4) (s : Fin 512) (k : Fin 1024) :
    (broadcastTo S4x512x1024 (shapeCast S4x512x1 d shapeCasts_S4x512_S4x512x1) broadcasts_S4x512x1_S4x512x1024) (ix3 i s k)
      = d (ix2 i s) := by
  refine (broadcastTo_apply _ _ (ix3 i s k) (ix3 i s (0 : Fin 1)) (fun a => match a with
    | ⟨0, _⟩ => by show i.val = (if (4 : Nat) = 1 then 0 else i.val); rw [if_neg (by decide)]
    | ⟨1, _⟩ => by show s.val = (if (512 : Nat) = 1 then 0 else s.val); rw [if_neg (by decide)]
    | ⟨2, _⟩ => by show 0 = (if (1 : Nat) = 1 then 0 else k.val); rw [if_pos rfl])).trans ?_
  exact shapeCast_apply _ _ (ix3 i s (0 : Fin 1)) (ix2 i s)
    (by rw [Shape.rowMajor_val_two, Shape.rowMajor_val_three]; show i.val * 512 + s.val = (i.val * 512 + s.val) * 1 + 0; omega)

/-- One table row `[1, 1024]` read as a `[1024]` vector, at k, is the row's entry (0, k). -/
theorem table_row (T : Vec Ideal S1x1024 .f32) (k : Fin 1024) :
    (shapeCast S1024 T shapeCasts_S1x1024_S1024) (ix1 k) = T (ix2 (0 : Fin 1) k) :=
  shapeCast_apply _ _ (ix1 k) (ix2 (0 : Fin 1) k)
    (by rw [Shape.rowMajor_val_two, Shape.rowMajor_val_one]; show 0 * 1024 + k.val = k.val; omega)

/-- The vector the body normalises, as the body spells it. -/
def Y (X : Vec Ideal S4x512x1024 .f32) (P : Vec Ideal S512x1024 .f32) (T0 : Vec Ideal S1x1024 .f32) (D : Vec Ideal S4x512 .f32)
    (T1 : Vec Ideal S1x1024 .f32) : FVec Ideal S4x512x1024 .f32 :=
  addf (addf X (broadcastTo S4x512x1024 (shapeCast S1x512x1024 P shapeCasts_S512x1024_S1x512x1024) broadcasts_S1x512x1024_S4x512x1024))
    (addf (broadcastTo S4x512x1024 (shapeCast S1x1x1024 (shapeCast S1024 T0 shapeCasts_S1x1024_S1024) shapeCasts_S1024_S1x1x1024) broadcasts_S1x1x1024_S4x512x1024)
      (mulf (broadcastTo S4x512x1024 (shapeCast S4x512x1 (shapeCast S4x512 D shapeCasts_S4x512_S4x512) shapeCasts_S4x512_S4x512x1) broadcasts_S4x512x1_S4x512x1024)
        (broadcastTo S4x512x1024 (shapeCast S1x1x1024 (subf (shapeCast S1024 T1 shapeCasts_S1x1024_S1024) (shapeCast S1024 T0 shapeCasts_S1x1024_S1024)) shapeCasts_S1024_S1x1x1024) broadcasts_S1x1x1024_S4x512x1024)))

/-- The row at an index: input plus position plus the token-type row `T0 + D · (T1 − T0)`. -/
theorem Y_apply (X : Vec Ideal S4x512x1024 .f32) (P : Vec Ideal S512x1024 .f32) (T0 : Vec Ideal S1x1024 .f32) (D : Vec Ideal S4x512 .f32)
    (T1 : Vec Ideal S1x1024 .f32) (i : Fin 4) (s : Fin 512) (k : Fin 1024) :
    Y X P T0 D T1 (ix3 i s k)
      = (X (ix3 i s k) + P (ix2 s k)) + (T0 (ix2 (0 : Fin 1) k) + D (ix2 i s) * (T1 (ix2 (0 : Fin 1) k) - T0 (ix2 (0 : Fin 1) k))) := by
  unfold Y
  rw [addf_apply, addf_apply, addf_apply, mulf_apply, under_batch, along_lanes, across_lanes, along_lanes, shapeCast_self,
    subf_apply, table_row, table_row]

end Cert.KernelRow

end
-- ==== Proof.Moments.lean ====
/-
  Layer normalisation of one row of real numbers, written two ways, and the token-type row written two ways.

  A row `y : ι → ℝ` over a finite index type with 1024 elements has mean `μ = (Σ y) / 1024` and variance
  `σ² = (Σ (y − μ)²) / 1024`.  The two-pass form normalises `(y w − μ) / √(σ² + ε)`, scales by `g w` and shifts by
  `b w`.  The one-pass form takes the variance from the raw moments, `σ² = (Σ y²) / 1024 − μ²`, and folds the
  normalisation into one multiply-add, `y w · (r · g w) + (b w − μ · r · g w)` with `r = 1 / √(σ² + ε)`.
  They agree on every real row: the two variances are one number (expand the square and use `Σ y = 1024 μ`), and
  the affine map is the same map (`ring`).  The variance is a mean of squares, hence nonnegative, so `σ² + ε > 0`
  for `ε > 0`: the square root is of a positive number in both forms.

  The token-type row: a table of two rows `t0, t1` looked up at an id in {0, 1} is `t0 + id · (t1 − t0)`, and
  also `o0 · t0 + o1 · t1` for the one-hot pair `(o0, o1)` of the id.
-/
import Mathlib.Analysis.SpecialFunctions.Pow.Real
import Mathlib.Algebra.BigOperators.Fin
import Mathlib.Tactic.Ring
import Mathlib.Tactic.NormNum
import Mathlib.Tactic.Positivity

noncomputable section

namespace Cert.LayerNorm

open scoped BigOperators

/-- The layer norm's ε: the real number the single-precision pattern of `1e-3` denotes, `8589935 · 2⁻³³`. -/
def eps : ℝ := 8589935 / 8589934592

theorem eps_pos : 0 < eps := by unfold eps; norm_num

variable {ι : Type} [Fintype ι]

/-- The mean of a row of 1024 entries. -/
def mean (y : ι → ℝ) : ℝ := (∑ k, y k) * (1 / 1024)

/-- The variance from the raw moments: the mean of the squares less the square of the mean. -/
def varRaw (y : ι → ℝ) : ℝ := (∑ k, y k * y k) * (1 / 1024) - mean y * mean y

/-- The variance as the mean of the squared deviations. -/
def varCentred (y : ι → ℝ) : ℝ := (∑ k, (y k - mean y) * (y k - mean y)) * (1 / 1024)

/-- One-pass layer norm: moments from `Σ y` and `Σ y²`, then one multiply-add per entry. -/
def onePass (y g b : ι → ℝ) (w : ι) : ℝ :=
  y w * ((Real.sqrt (varRaw y + eps))⁻¹ * g w) + (b w - mean y * (Real.sqrt (varRaw y + eps))⁻¹ * g w)

/-- Two-pass layer norm: centre, divide by the standard deviation, scale and shift. -/
def twoPass (y g b : ι → ℝ) (w : ι) : ℝ :=
  (y w - mean y) * (1 / Real.sqrt (varCentred y + eps)) * g w + b w

/-- The two variances are one number when the row has 1024 entries. -/
theorem varCentred_eq_varRaw (hcard : Fintype.card ι = 1024) (y : ι → ℝ) : varCentred y = varRaw y := by
  have hS : ∑ k, y k = 1024 * mean y := by unfold mean; ring
  have hsq : ∀ k, (y k - mean y) * (y k - mean y) = y k * y k - 2 * mean y * y k + mean y * mean y := fun k => by ring
  unfold varCentred varRaw
  simp only [hsq, Finset.sum_add_distrib, Finset.sum_sub_distrib, ← Finset.mul_sum, Finset.sum_const,
    Finset.card_univ, hcard, nsmul_eq_mul]
  rw [hS]
  push_cast
  ring

/-- The variance is nonnegative: a mean of squares. -/
theorem varCentred_nonneg (y : ι → ℝ) : 0 ≤ varCentred y := by
  unfold varCentred
  exact mul_nonneg (Finset.sum_nonneg fun k _ => mul_self_nonneg _) (by norm_num)

theorem varCentred_add_eps_pos (y : ι → ℝ) : 0 < varCentred y + eps :=
  add_pos_of_nonneg_of_pos (varCentred_nonneg y) eps_pos

theorem varRaw_add_eps_pos (hcard : Fintype.card ι = 1024) (y : ι → ℝ) : 0 < varRaw y + eps := by
  rw [← varCentred_eq_varRaw hcard]; exact varCentred_add_eps_pos y

/-- THE LAW: the one-pass and the two-pass layer norm of a real row of 1024 entries agree. -/
theorem twoPass_eq_onePass (hcard : Fintype.card ι = 1024) (y g b : ι → ℝ) (w : ι) :
    twoPass y g b w = onePass y g b w := by
  unfold twoPass onePass
  rw [varCentred_eq_varRaw hcard, one_div]
  ring

/-- A row of the input with its position row and its token-type row, the token-type row as `t0 + id · (t1 − t0)`. -/
def rowFma (x p t0 t1 id : ℝ) : ℝ := (x + p) + (t0 + id * (t1 - t0))

/-- The same with the token-type row as the product of a one-hot pair with the table. -/
def rowOneHot (x p t0 t1 o0 o1 : ℝ) : ℝ := (x + (o0 * t0 + o1 * t1)) + p

theorem rowOneHot_id_zero (x p t0 t1 : ℝ) : rowOneHot x p t0 t1 1 0 = rowFma x p t0 t1 0 := by
  unfold rowOneHot rowFma; ring
theorem rowOneHot_id_one (x p t0 t1 : ℝ) : rowOneHot x p t0 t1 0 1 = rowFma x p t0 t1 1 := by
  unfold rowOneHot rowFma; ring

/-- THE RESULT both programs compute, entry `(i, s, w)`: the one-pass layer norm over `w` of the row
    `x[i, s, ·] + pos[s, ·] + (tt[0, ·] + id[i, s] · (tt[1, ·] − tt[0, ·]))`, scaled by `g` and shifted by `b`. -/
def out (x : Fin 4 → Fin 2048 → Fin 1024 → ℝ) (id : Fin 4 → Fin 2048 → ℝ) (tt : Fin 2 → Fin 1024 → ℝ)
    (pos : Fin 2048 → Fin 1024 → ℝ) (g b : Fin 1024 → ℝ) (i : Fin 4) (s : Fin 2048) (w : Fin 1024) : ℝ :=
  onePass (fun k => rowFma (x i s k) (pos s k) (tt 0 k) (tt 1 k) (id i s)) g b w

end Cert.LayerNorm

end
-- ==== Proof.Literals.lean ====
/-
  The four single-precision literals the two programs spell, as the extended reals their patterns denote:
  `0`, `1024`, `2⁻¹⁰ = 1/1024` (exact: a power of two) and the layer norm's ε, the pattern nearest `1e-3`,
  which is the positive real `8589935 · 2⁻³³`.
-/
import Idealize.ShloMosaic.PureOps.Ideal
import proofs.«173393_g56530359550239_cont_9to1_m_589_14_alg».proof.Proof.Moments

noncomputable section

namespace Cert.Literals

open Idealize.ShloMosaic

theorem ofBits_zero : Ideal.ofBits .f32 0x00000000#32 = ((0 : ℝ) : EReal) := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_eps : Ideal.ofBits .f32 0x3A83126F#32 = ((Cert.LayerNorm.eps : ℝ) : EReal) := by
  unfold Cert.LayerNorm.eps
  simp [Ideal.ofBits, Ideal.ieee, -EReal.coe_mul]; norm_num

end Cert.Literals

end
-- ==== Proof.LibRealSums.lean ====
/-
  Extended reals that are real numbers, and the three algebraic laws this certificate's bridge rests on.

  An extended real is REAL when it is the coercion of a real number; the reals inside the extended reals are
  closed under sum, difference, product, negation, maximum and finite sums, and on them the ring laws hold
  (they fail at the infinities: distributivity needs every term real). Over a finite index type:

  * folding a three-term Chebyshev combination into the weights:
      Σ a·(u − w) + Σ b·v + Σ c·(t·w)  =  Σ a·u + Σ b·v + Σ (t·c − a)·w      (every entry real);
  * an affine map written two ways:  z·s + (β − μ·s) = (z − μ)·s + β          (every entry real);
  * a sum over 4·n indices is the sum of its four consecutive blocks of n (any commutative monoid: no
    finiteness needed).
-/
import Mathlib.Data.EReal.Basic
import Mathlib.Data.EReal.Operations
import Mathlib.Algebra.BigOperators.Fin
import Mathlib.Tactic.Ring
import Mathlib.Tactic.NormNum

namespace Cert.Lib.RealSums

open scoped BigOperators

/-- The extended real `x` is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.sub {x y : EReal} (hx : IsReal x) (hy : IsReal y) : IsReal (x - y) := by
  obtain ⟨r, rfl⟩ := hx
  obtain ⟨s, rfl⟩ := hy
  exact ⟨r - s, (EReal.coe_sub r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.neg {x : EReal} (hx : IsReal x) : IsReal (-x) := by
  obtain ⟨r, rfl⟩ := hx
  exact ⟨-r, (EReal.coe_neg r).symm⟩
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]

/-- A real extended real is neither infinity. -/
theorem IsReal.ne_top {x : EReal} (hx : IsReal x) : x ≠ ⊤ := by
  obtain ⟨r, rfl⟩ := hx
  exact EReal.coe_ne_top r
theorem IsReal.ne_bot {x : EReal} (hx : IsReal x) : x ≠ ⊥ := by
  obtain ⟨r, rfl⟩ := hx
  exact EReal.coe_ne_bot r
/-- An extended real strictly between the infinities is real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- Folding the Chebyshev recursion into the weights: with every entry real and any real `t`,
    `Σ a·(u − w) + Σ b·v + Σ c·(t·w) = Σ a·u + Σ b·v + Σ (t·c − a)·w`. -/
theorem fold_weights {K : Type*} [Fintype K] (a b c u v w : K → EReal) (t : EReal)
    (ha : ∀ k, IsReal (a k)) (hb : ∀ k, IsReal (b k)) (hc : ∀ k, IsReal (c k))
    (hu : ∀ k, IsReal (u k)) (hv : ∀ k, IsReal (v k)) (hw : ∀ k, IsReal (w k)) (ht : IsReal t) :
    (∑ k, a k * (u k - w k) + ∑ k, b k * v k) + ∑ k, c k * (t * w k)
      = (∑ k, a k * u k + ∑ k, b k * v k) + ∑ k, (t * c k - a k) * w k := by
  choose a' ha' using ha
  choose b' hb' using hb
  choose c' hc' using hc
  choose u' hu' using hu
  choose v' hv' using hv
  choose w' hw' using hw
  obtain ⟨t', rfl⟩ := ht
  obtain rfl : a = fun k => (a' k : EReal) := funext ha'
  obtain rfl : b = fun k => (b' k : EReal) := funext hb'
  obtain rfl : c = fun k => (c' k : EReal) := funext hc'
  obtain rfl : u = fun k => (u' k : EReal) := funext hu'
  obtain rfl : v = fun k => (v' k : EReal) := funext hv'
  obtain rfl : w = fun k => (w' k : EReal) := funext hw'
  simp only [← EReal.coe_mul, ← EReal.coe_sub, ← EReal.coe_add, ← coe_finset_sum]
  rw [EReal.coe_eq_coe_iff]
  rw [← Finset.sum_add_distrib, ← Finset.sum_add_distrib, ← Finset.sum_add_distrib,
    ← Finset.sum_add_distrib]
  refine Finset.sum_congr rfl fun k _ => ?_
  ring

/-- An affine map of a real written two ways. -/
theorem affine_two_ways {z s β μ : EReal} (hz : IsReal z) (hs : IsReal s) (hβ : IsReal β) (hμ : IsReal μ) :
    z * s + (β - μ * s) = (z - μ) * s + β := by
  obtain ⟨z', rfl⟩ := hz
  obtain ⟨s', rfl⟩ := hs
  obtain ⟨β', rfl⟩ := hβ
  obtain ⟨μ', rfl⟩ := hμ
  simp only [← EReal.coe_mul, ← EReal.coe_sub, ← EReal.coe_add]
  rw [EReal.coe_eq_coe_iff]
  ring

/-- A sum over `n + n + n + n` indices is the sum of its four consecutive blocks. -/
theorem sum_four_blocks {M : Type*} [AddCommMonoid M] (n : Nat) (f : Fin (n + n + n + n) → M) :
    ∑ k, f k
      = ((∑ k : Fin n, f ⟨k.val, by omega⟩ + ∑ k : Fin n, f ⟨n + k.val, by omega⟩)
          + ∑ k : Fin n, f ⟨n + n + k.val, by omega⟩) + ∑ k : Fin n, f ⟨n + n + n + k.val, by omega⟩ := by
  rw [Fin.sum_univ_add, Fin.sum_univ_add, Fin.sum_univ_add]
  rfl

end Cert.Lib.RealSums
-- ==== Proof.KernelBlock.lean ====
/-
  One entry of the block the kernel body leaves, when every loaded entry is a real number.

  The body's result at the block index (i, s, w) is
      Y[i,s,w] · (r · γ[w]) + (β[w] − (μ · r) · γ[w]),
  with  μ = (Σₖ Y[i,s,k]) · 2⁻¹⁰,  r = rsqrt((Σₖ Y[i,s,k]²) · 2⁻¹⁰ − μ · μ + ε)  and  Y  the row of KernelRow.
  When the loaded blocks hold real numbers, every term is a real number: the row is the real row
  `rowFma`, the two lane sums are real sums, the variance plus ε is positive (it is the centred variance plus ε),
  so the reciprocal square root is the real `(√·)⁻¹`, and the entry is the real one-pass layer norm of the row.
-/
import proofs.«173393_g56530359550239_cont_9to1_m_589_14_alg».proof.Proof.KernelRow
import proofs.«173393_g56530359550239_cont_9to1_m_589_14_alg».proof.Proof.Moments
import proofs.«173393_g56530359550239_cont_9to1_m_589_14_alg».proof.Proof.Literals
import proofs.«173393_g56530359550239_cont_9to1_m_589_14_alg».proof.Proof.LibRealSums
import Idealize.ShloMosaic.PureOps.Ideal.Laws

noncomputable section

namespace Cert.KernelBlock

open Cert.KernelIdeal Cert.KernelIdeal.Gen Idealize.ShloMosaic Idealize.ShloMosaic.TcCoe Idealize.ShloMosaic.ValueIdx
open Cert.KernelRow Cert.LayerNorm
open scoped BigOperators

/-- The arithmetic of one entry on real numbers: with the two moments real, the variance plus ε is positive, the
    reciprocal square root is the real one, and the multiply-add is the real one-pass layer norm. -/
theorem entry_real {ι : Type} [Fintype ι] (hcard : Fintype.card ι = 1024) (y g b : ι → ℝ) (w : ι) :
    ((y w : ℝ) : EReal)
        * (Ideal.rsqrt ((((∑ k, y k * y k : ℝ) : EReal) * ((1 / 1024 : ℝ) : EReal)
              - (((∑ k, y k : ℝ) : EReal) * ((1 / 1024 : ℝ) : EReal)) * (((∑ k, y k : ℝ) : EReal) * ((1 / 1024 : ℝ) : EReal)))
            + ((eps : ℝ) : EReal)) * ((g w : ℝ) : EReal))
      + (((b w : ℝ) : EReal)
          - ((((∑ k, y k : ℝ) : EReal) * ((1 / 1024 : ℝ) : EReal))
              * Ideal.rsqrt ((((∑ k, y k * y k : ℝ) : EReal) * ((1 / 1024 : ℝ) : EReal)
                  - (((∑ k, y k : ℝ) : EReal) * ((1 / 1024 : ℝ) : EReal)) * (((∑ k, y k : ℝ) : EReal) * ((1 / 1024 : ℝ) : EReal)))
                + ((eps : ℝ) : EReal))) * ((g w : ℝ) : EReal))
      = ((onePass y g b w : ℝ) : EReal) := by
  have hv : 0 < varRaw y + eps := varRaw_add_eps_pos hcard y
  have e1 : (((∑ k, y k * y k : ℝ) : EReal) * ((1 / 1024 : ℝ) : EReal)
              - (((∑ k, y k : ℝ) : EReal) * ((1 / 1024 : ℝ) : EReal)) * (((∑ k, y k : ℝ) : EReal) * ((1 / 1024 : ℝ) : EReal)))
            + ((eps : ℝ) : EReal) = ((varRaw y + eps : ℝ) : EReal) := by
    unfold varRaw mean
    simp only [EReal.coe_add, EReal.coe_sub, EReal.coe_mul]
  rw [e1, Ideal.rsqrt_coe, if_neg (not_lt.2 hv.le), if_neg hv.ne']
  unfold onePass mean
  simp only [EReal.coe_add, EReal.coe_sub, EReal.coe_mul]

section
variable (X : Vec Ideal S4x512x1024 .f32) (P : Vec Ideal S512x1024 .f32) (T0 : Vec Ideal S1x1024 .f32) (D : Vec Ideal S4x512 .f32)
  (T1 : Vec Ideal S1x1024 .f32)
  (x : Fin 4 → Fin 512 → Fin 1024 → ℝ) (p : Fin 512 → Fin 1024 → ℝ) (t0 t1 : Fin 1024 → ℝ) (d : Fin 4 → Fin 512 → ℝ)
  (hX : ∀ i s k, X (ix3 i s k) = ((x i s k : ℝ) : EReal)) (hP : ∀ s k, P (ix2 s k) = ((p s k : ℝ) : EReal))
  (hT0 : ∀ k, T0 (ix2 (0 : Fin 1) k) = ((t0 k : ℝ) : EReal)) (hT1 : ∀ k, T1 (ix2 (0 : Fin 1) k) = ((t1 k : ℝ) : EReal))
  (hD : ∀ i s, D (ix2 i s) = ((d i s : ℝ) : EReal))
include hX hP hT0 hT1 hD

/-- The row at an index is the real row. -/
theorem Y_real (i : Fin 4) (s : Fin 512) (k : Fin 1024) :
    Y X P T0 D T1 (ix3 i s k) = ((rowFma (x i s k) (p s k) (t0 k) (t1 k) (d i s) : ℝ) : EReal) := by
  rw [Y_apply, hX, hP, hT0, hT1, hD]
  unfold rowFma
  simp only [EReal.coe_add, EReal.coe_mul, EReal.coe_sub]

/-- The lane sum of the row is the real sum. -/
theorem sum_real (i : Fin 4) (s : Fin 512) :
    multiReduction .add [2] S4x512 (Y X P T0 D T1) 0x00000000#32 reduces_S4x512x1024_S4x512 (.inl rfl) rfl (ix2 i s)
      = ((∑ k : Fin 1024, rowFma (x i s k) (p s k) (t0 k) (t1 k) (d i s) : ℝ) : EReal) := by
  refine (Ideal.multiReduction_add_single (Y X P T0 D T1) 0x00000000#32 reduces_S4x512x1024_S4x512 (.inl rfl) rfl (ix2 i s)).trans ?_
  rw [Cert.Lib.RealSums.coe_finset_sum]
  refine Finset.sum_congr rfl fun k _ => ?_
  rw [← Y_real X P T0 D T1 x p t0 t1 d hX hP hT0 hT1 hD i s k]
  exact congrArg (Y X P T0 D T1) (funext fun a => Fin.ext (by match a with | ⟨0, _⟩ => rfl | ⟨1, _⟩ => rfl | ⟨2, _⟩ => rfl))

/-- The lane sum of the squared row is the real sum of squares. -/
theorem sumsq_real (i : Fin 4) (s : Fin 512) :
    multiReduction .add [2] S4x512 (mulf (Y X P T0 D T1) (Y X P T0 D T1)) 0x00000000#32 reduces_S4x512x1024_S4x512 (.inl rfl) rfl (ix2 i s)
      = ((∑ k : Fin 1024, rowFma (x i s k) (p s k) (t0 k) (t1 k) (d i s) * rowFma (x i s k) (p s k) (t0 k) (t1 k) (d i s) : ℝ) : EReal) := by
  refine (Ideal.multiReduction_add_single (mulf (Y X P T0 D T1) (Y X P T0 D T1)) 0x00000000#32 reduces_S4x512x1024_S4x512 (.inl rfl) rfl (ix2 i s)).trans ?_
  rw [Cert.Lib.RealSums.coe_finset_sum]
  refine Finset.sum_congr rfl fun k _ => ?_
  rw [EReal.coe_mul, ← Y_real X P T0 D T1 x p t0 t1 d hX hP hT0 hT1 hD i s k, ← mulf_apply]
  exact congrArg (mulf (Y X P T0 D T1) (Y X P T0 D T1)) (funext fun a => Fin.ext (by match a with | ⟨0, _⟩ => rfl | ⟨1, _⟩ => rfl | ⟨2, _⟩ => rfl))

/-- THE ENTRY: what the body leaves at block index (i, s, w) is the real one-pass layer norm of the real row. -/
theorem entry (Gm Bt : Vec Ideal S1024 .f32) (g b : Fin 1024 → ℝ)
    (hG : ∀ k, Gm (ix1 k) = ((g k : ℝ) : EReal)) (hB : ∀ k, Bt (ix1 k) = ((b k : ℝ) : EReal))
    (i : Fin 4) (s : Fin 512) (w : Fin 1024) :
    Value.E6 X P T0 D T1 Gm Bt (ix3 i s w)
      = ((onePass (fun k => rowFma (x i s k) (p s k) (t0 k) (t1 k) (d i s)) g b w : ℝ) : EReal) := by
  have j0 : Value.ix6_0 (ix3 i s w) = ix3 i s w := funext fun a => Fin.ext (by match a with | ⟨0, _⟩ => rfl | ⟨1, _⟩ => rfl | ⟨2, _⟩ => rfl)
  have j1 : Value.ix6_1 (ix3 i s w) = ix2 s w := funext fun a => Fin.ext (by match a with | ⟨0, _⟩ => rfl | ⟨1, _⟩ => rfl)
  have j2 : Value.ix6_2 (ix3 i s w) = ix2 (0 : Fin 1) w := funext fun a => Fin.ext (by match a with | ⟨0, _⟩ => rfl | ⟨1, _⟩ => rfl)
  have j3 : Value.ix6_3 (ix3 i s w) = ix2 i s := funext fun a => Fin.ext (by match a with | ⟨0, _⟩ => rfl | ⟨1, _⟩ => rfl)
  have j4 : Value.ix6_4 (ix3 i s w) = ix2 (0 : Fin 1) w := funext fun a => Fin.ext (by match a with | ⟨0, _⟩ => rfl | ⟨1, _⟩ => rfl)
  have j5 : Value.ix6_5 (ix3 i s w) = ix2 (0 : Fin 1) w := funext fun a => Fin.ext (by match a with | ⟨0, _⟩ => rfl | ⟨1, _⟩ => rfl)
  have j6 : Value.ix6_6 (ix3 i s w) = ix2 i s := funext fun a => Fin.ext (by match a with | ⟨0, _⟩ => rfl | ⟨1, _⟩ => rfl)
  have j7 : Value.ix6_7 (ix3 i s w) = ix2 i s := funext fun a => Fin.ext (by match a with | ⟨0, _⟩ => rfl | ⟨1, _⟩ => rfl)
  have j8 : Value.ix6_8 (ix3 i s w) = ix2 i s := funext fun a => Fin.ext (by match a with | ⟨0, _⟩ => rfl | ⟨1, _⟩ => rfl)
  have j9 : Value.ix6_9 (ix3 i s w) = ix1 w := funext fun a => Fin.ext (by match a with | ⟨0, _⟩ => rfl)
  have j10 : Value.ix6_10 (ix3 i s w) = ix1 w := funext fun a => Fin.ext (by match a with | ⟨0, _⟩ => rfl)
  have j11 : Value.ix6_11 (ix3 i s w) = ix2 i s := funext fun a => Fin.ext (by match a with | ⟨0, _⟩ => rfl | ⟨1, _⟩ => rfl)
  have j12 : Value.ix6_12 (ix3 i s w) = ix2 i s := funext fun a => Fin.ext (by match a with | ⟨0, _⟩ => rfl | ⟨1, _⟩ => rfl)
  have j13 : Value.ix6_13 (ix3 i s w) = ix2 i s := funext fun a => Fin.ext (by match a with | ⟨0, _⟩ => rfl | ⟨1, _⟩ => rfl)
  have j14 : Value.ix6_14 (ix3 i s w) = ix2 i s := funext fun a => Fin.ext (by match a with | ⟨0, _⟩ => rfl | ⟨1, _⟩ => rfl)
  have j15 : Value.ix6_15 (ix3 i s w) = ix1 w := funext fun a => Fin.ext (by match a with | ⟨0, _⟩ => rfl)
  have hS := sum_real X P T0 D T1 x p t0 t1 d hX hP hT0 hT1 hD i s
  have hQ := sumsq_real X P T0 D T1 x p t0 t1 d hX hP hT0 hT1 hD i s
  unfold Y at hS hQ
  have hc : (Scalar.ofBits .f32 0x3A800000#32 : Ideal .f32) = ((1 / 1024 : ℝ) : EReal) := Cert.Literals.ofBits_inv_1024
  have he : (Scalar.ofBits .f32 0x3A83126F#32 : Ideal .f32) = ((eps : ℝ) : EReal) := Cert.Literals.ofBits_eps
  have hy : (((x i s w : ℝ) : EReal) + ((p s w : ℝ) : EReal)) + (((t0 w : ℝ) : EReal) + ((d i s : ℝ) : EReal) * (((t1 w : ℝ) : EReal) - ((t0 w : ℝ) : EReal)))
      = ((rowFma (x i s w) (p s w) (t0 w) (t1 w) (d i s) : ℝ) : EReal) := by
    unfold rowFma; simp only [EReal.coe_add, EReal.coe_mul, EReal.coe_sub]
  unfold Value.E6
  dsimp only
  rw [j0, j1, j2, j3, j4, j5, j6, j7, j8, j9, j10, j11, j12, j13, j14, j15]
  rw [hS, hQ, hc, he, hX, hP, hT0, hT1, hD, hG, hB]
  simp only [Ideal.addf_def, Ideal.mulf_def, Ideal.subf_def, Ideal.rsqrt_def]
  rw [hy]
  exact entry_real (Fintype.card_fin 1024) (fun k => rowFma (x i s k) (p s k) (t0 k) (t1 k) (d i s)) g b w

end

end Cert.KernelBlock

end
-- ==== Proof.KernelCover.lean ====
/-
  The kernel's grid and its windows, in closed form.

  The kernel runs over a grid of four points `t = 0, 1, 2, 3`. Its result, an array of shape [4, 2048, 1024], is
  written back in four blocks of shape [4, 512, 1024]: point `t` writes the block of rows `512·t … 512·t + 511`
  of the middle axis, all of the first and last axes. The inputs move with it: the activations in the same
  blocks, the token types (already converted to floats) in blocks [4, 512] of the same rows, the positions in
  blocks [512, 1024] of the same rows, while the two-row table and the two vectors of length 1024 are read whole
  at every point. Here: the block index of every window at every point; membership of an array index in a
  point's block of the result; the fact that the four blocks cover the whole result; and the one conversion
  the program performs before the grid starts, the token types read as floats.
-/
import proofs.«173393_g56530359550239_cont_9to1_m_589_14_alg».proof.Proof.Gen.KernelIdeal.Value
import Idealize.ShloMosaic.Lib.StableHlo.Run

noncomputable section

namespace Cert.KernelCover

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block index of each window at grid point `t`, decided once over the four points: the windows cut along
    the rows (activations, token types, positions, result) sit at block `t` of that axis and block 0 of the others;
    the windows read whole sit at block 0. -/
theorem index_maps : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = 0
    ∧ win0_5.index t (0 : Fin 1) = 0
    ∧ win0_6.index t (0 : Fin 3) = 0 ∧ win0_6.index t (1 : Fin 3) = t.val ∧ win0_6.index t (2 : Fin 3) = 0 :=
  (by decide +kernel : ∀ t : Fin grid0.N, _)

/-- An index of the result array lies in point `t`'s block iff, on each axis, its coordinate lies in the block's
    range there: from (block index) × (block extent), for (block extent) places. -/
theorem mem_block (t : Fin cfg0.N) (i : S4x2048x1024.Idx) :
    i ∈ ((cfg0.win 6).blk t).view.set ↔ ∀ a : Fin 3, win0_6.index t a * S4x512x1024.size a ≤ (i a).val ∧ (i a).val < win0_6.index t a * S4x512x1024.size a + S4x512x1024.size a := by
  show i ∈ ((View.whole main_v1).slice (win0_6.rect t)).set ↔ _
  rw [View.set_slice_whole, Rect.mem_set_unit]
  exact Iff.rfl

/-- The four blocks cover the result: the index `i` lies in the block of the point `⌊i₁ / 512⌋`, which is below 4
    because `i₁ < 2048`, and every point writes its block back. -/
theorem covered : ∀ i : S4x2048x1024.Idx, ∃ t : Fin cfg0.N, (cfg0.win 6).flush t = true ∧ i ∈ ((cfg0.win 6).blk t).view.set := by
  intro i
  have hi0 : (i 0).val < 4 := (i 0).isLt
  have hi1 : (i 1).val < 2048 := (i 1).isLt
  have hi2 : (i 2).val < 1024 := (i 2).isLt
  have hN : cfg0.N = 4 := N_0
  let t : Fin cfg0.N := ⟨(i 1).val / 512, by rw [hN]; omega⟩
  have ht : t.val = (i 1).val / 512 := rfl
  obtain ⟨-, -, -, -, -, -, -, -, -, -, -, e0, e1, e2⟩ := index_maps t
  refine ⟨t, flush0_6 t, ?_⟩
  rw [mem_block]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- Before the grid starts the program converts the integer token types to floats, entry by entry; that array is
    what the token-type window reads. -/
theorem ids_as_floats (c : Dev nD) :
    (V m c main_v0 : S4x2048.Idx → Elt F .f32)
      = (sitofp .f32 : (⟨S4x2048, .i32⟩ : BufTy).Contents (Elt F) → (⟨S4x2048, .f32⟩ : BufTy).Contents (Elt F))
          (m ((c : Thread nD τ).loc main_arg1)) := by
  dsimp only [Gen.V, Gen.hostOps0]; after_results

end Cert.KernelCover

end
-- ==== Proof.KernelArray.lean ====
/-
  The kernel's result array, as one function of its argument arrays.

  Grid point `t` works on rows `512·t … 512·t + 511` of the sequence axis: it reads that block of the input, of the
  ids (as floats) and of the positions, the whole two-row table and the two lane vectors, and writes back that block
  of the result.  By KernelBlock, entry (i, s, w) of the block it writes is the real one-pass layer norm of the real
  row built from the entries it read; those are the array entries at sequence position `512·t + s`.  So what point
  `t` writes back is block `t` of ONE array — the specification `out` of the real argument arrays, coerced —, the four
  blocks cover the result (KernelCover), and the result array after the run is that array.
-/
import proofs.«173393_g56530359550239_cont_9to1_m_589_14_alg».proof.Proof.KernelBlock
import proofs.«173393_g56530359550239_cont_9to1_m_589_14_alg».proof.Proof.KernelCover

noncomputable section

namespace Cert.KernelArray

open Cert.KernelIdeal Cert.KernelIdeal.Gen Idealize.ShloMosaic Idealize.ShloMosaic.TcCoe Idealize.SL.Sem Idealize.ShloMosaic.ValueIdx
open Idealize.ShloMosaic.Pipeline (Dat)
open Cert.LayerNorm

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The body's block from its six operand blocks, when their entries are real: the loads through whole-buffer
    rectangles read the operands, the two loads of the table read its row 0 and its row 1. -/
theorem block_entry (x0 : Vec Ideal S4x512x1024 .f32) (x1 : Vec Ideal S4x512 .f32) (x2 : Vec Ideal S2x1024 .f32) (x3 : Vec Ideal S512x1024 .f32)
    (x4 x5 : Vec Ideal S1024 .f32)
    (x : Fin 4 → Fin 512 → Fin 1024 → ℝ) (d : Fin 4 → Fin 512 → ℝ) (tt : Fin 2 → Fin 1024 → ℝ) (p : Fin 512 → Fin 1024 → ℝ) (g b : Fin 1024 → ℝ)
    (h0 : ∀ i s k, x0 (ix3 i s k) = ((x i s k : ℝ) : EReal)) (h1 : ∀ i s, x1 (ix2 i s) = ((d i s : ℝ) : EReal))
    (h2 : ∀ r k, x2 (ix2 r k) = ((tt r k : ℝ) : EReal)) (h3 : ∀ s k, x3 (ix2 s k) = ((p s k : ℝ) : EReal))
    (h4 : ∀ k, x4 (ix1 k) = ((g k : ℝ) : EReal)) (h5 : ∀ k, x5 (ix1 k) = ((b k : ℝ) : EReal))
    (i : Fin 4) (s : Fin 512) (w : Fin 1024) :
    out0_6 x0 x1 x2 x3 x4 x5 (ix3 i s w)
      = ((onePass (fun k => rowFma (x i s k) (p s k) (tt 0 k) (tt 1 k) (d i s)) g b w : ℝ) : EReal) := by
  unfold out0_6
  rw [Value.canon6_eq]
  refine Cert.KernelBlock.entry _ _ _ _ _ x p (tt 0) (tt 1) d ?_ ?_ ?_ ?_ ?_ _ _ g b ?_ ?_ i s w
  · intro i s k; rw [View.ld_unit_zero (S := S4x512x1024) zeros3]; exact h0 i s k
  · intro s k; rw [View.ld_unit_zero (S := S512x1024) zeros2]; exact h3 s k
  · intro k
    show x2 (r0_2.idx (ix2 (0 : Fin 1) k)) = _
    refine (congrArg x2 (?_ : r0_2.idx (ix2 (0 : Fin 1) k) = ix2 (0 : Fin 2) k)).trans (h2 0 k)
    funext a; apply Fin.ext
    match a with
    | ⟨0, _⟩ => show 0 + 1 * 0 = 0; omega
    | ⟨1, _⟩ => show 0 + 1 * k.val = k.val; omega
  · intro k
    show x2 (r0_3.idx (ix2 (0 : Fin 1) k)) = _
    refine (congrArg x2 (?_ : r0_3.idx (ix2 (0 : Fin 1) k) = ix2 (1 : Fin 2) k)).trans (h2 1 k)
    funext a; apply Fin.ext
    match a with
    | ⟨0, _⟩ => show 1 + 1 * 0 = 1; omega
    | ⟨1, _⟩ => show 0 + 1 * k.val = k.val; omega
  · intro i s; rw [View.ld_unit_zero (S := S4x512) zeros2]; exact h1 i s
  · intro k; rw [View.ld_unit_zero (S := S1024) zeros1]; exact h4 k
  · intro k; rw [View.ld_unit_zero (S := S1024) zeros1]; exact h5 k

/-- The same at any block index, by its three coordinates. -/
theorem block_at (x0 : Vec Ideal S4x512x1024 .f32) (x1 : Vec Ideal S4x512 .f32) (x2 : Vec Ideal S2x1024 .f32) (x3 : Vec Ideal S512x1024 .f32)
    (x4 x5 : Vec Ideal S1024 .f32)
    (x : Fin 4 → Fin 512 → Fin 1024 → ℝ) (d : Fin 4 → Fin 512 → ℝ) (tt : Fin 2 → Fin 1024 → ℝ) (p : Fin 512 → Fin 1024 → ℝ) (g b : Fin 1024 → ℝ)
    (h0 : ∀ i s k, x0 (ix3 i s k) = ((x i s k : ℝ) : EReal)) (h1 : ∀ i s, x1 (ix2 i s) = ((d i s : ℝ) : EReal))
    (h2 : ∀ r k, x2 (ix2 r k) = ((tt r k : ℝ) : EReal)) (h3 : ∀ s k, x3 (ix2 s k) = ((p s k : ℝ) : EReal))
    (h4 : ∀ k, x4 (ix1 k) = ((g k : ℝ) : EReal)) (h5 : ∀ k, x5 (ix1 k) = ((b k : ℝ) : EReal))
    (j : S4x512x1024.Idx) :
    out0_6 x0 x1 x2 x3 x4 x5 j
      = ((onePass (fun k => rowFma (x (j 0) (j 1) k) (p (j 1) k) (tt 0 k) (tt 1 k) (d (j 0) (j 1))) g b (j 2) : ℝ) : EReal) := by
  exact (congrArg (out0_6 x0 x1 x2 x3 x4 x5) (eq_ix3 j)).trans
    (block_entry x0 x1 x2 x3 x4 x5 x d tt p g b h0 h1 h2 h3 h4 h5 (j 0) (j 1) (j 2))

/-- The sequence position of row `s` of the block of grid point `t`. -/
def rowOf (t : Fin cfg0.N) (s : Fin 512) : Fin 2048 :=
  ⟨t.val * 512 + s.val, by have ht : t.val < 4 := lt_of_lt_of_eq t.isLt N_0; have hs := s.isLt; omega⟩

/-- THE RESULT ARRAY: the specification of the real argument arrays, entry by entry, as extended reals. The ids enter
    as the integers they are. -/
def result (xa : S4x2048x1024.Idx → ℝ) (I : S4x2048.Idx → BitVec 32) (tta : S2x1024.Idx → ℝ) (posa : S2048x1024.Idx → ℝ)
    (ga ba : S1024.Idx → ℝ) : S4x2048x1024.Idx → EReal :=
  fun j => ((out (fun i s k => xa (ix3 i s k)) (fun i s => (((I (ix2 i s)).toInt : ℤ) : ℝ)) (fun r k => tta (ix2 r k))
    (fun s k => posa (ix2 s k)) (fun k => ga (ix1 k)) (fun k => ba (ix1 k)) (j 0) (j 1) (j 2) : ℝ) : EReal)

section
variable (m : (ℓ : Loc nD τ sig) → Buf (Elt Ideal) ℓ) (ρ : Dev nD → PrngReg)

/-- WHAT POINT `t` WRITES BACK is block `t` of the result array. -/
theorem flushed_eq (c : Dev nD) (xa : S4x2048x1024.Idx → ℝ) (tta : S2x1024.Idx → ℝ) (posa : S2048x1024.Idx → ℝ) (ga ba : S1024.Idx → ℝ)
    (hx : ∀ j, m ((c : Thread nD τ).loc main_arg0) j = ((xa j : ℝ) : EReal))
    (htt : ∀ j, m ((c : Thread nD τ).loc main_arg2) j = ((tta j : ℝ) : EReal))
    (hpos : ∀ j, m ((c : Thread nD τ).loc main_arg3) j = ((posa j : ℝ) : EReal))
    (hg : ∀ j, m ((c : Thread nD τ).loc main_arg4) j = ((ga j : ℝ) : EReal))
    (hb : ∀ j, m ((c : Thread nD τ).loc main_arg5) j = ((ba j : ℝ) : EReal))
    (t : Fin cfg0.N) :
    (dats m 0 c).flushed 6 t
      = ((cfg0.win 6).blk t).view.read (Elt Ideal) (result xa (m ((c : Thread nD τ).loc main_arg1)) tta posa ga ba) := by
  rw [Value.flushed6]
  obtain ⟨e00, e01, e02, e10, e11, e20, e21, e30, e31, e40, e50, e60, e61, e62⟩ := Cert.KernelCover.index_maps t
  funext j
  show out0_6 (iblk m c 0 t) (iblk m c 1 t) (iblk m c 2 t) (iblk m c 3 t) (iblk m c 4 t) (iblk m c 5 t) j
    = result xa (m ((c : Thread nD τ).loc main_arg1)) tta posa ga ba (((cfg0.win 6).blk t).view.emb j)
  refine (block_at (iblk m c 0 t) (iblk m c 1 t) (iblk m c 2 t) (iblk m c 3 t) (iblk m c 4 t) (iblk m c 5 t)
    (fun i s k => xa (ix3 i (rowOf t s) k)) (fun i s => (((m ((c : Thread nD τ).loc main_arg1) (ix2 i (rowOf t s))).toInt : ℤ) : ℝ))
    (fun r k => tta (ix2 r k)) (fun s k => posa (ix2 (rowOf t s) k)) (fun k => ga (ix1 k)) (fun k => ba (ix1 k))
    ?_ ?_ ?_ ?_ ?_ ?_ j).trans ?_
  · intro i s k
    show V m c main_arg0 (((cfg0.win 0).blk t).view.emb (ix3 i s k)) = _
    rw [V_main_arg0, hx]
    refine congrArg (fun z => ((xa z : ℝ) : EReal)) ?_
    funext a; apply Fin.ext
    match a with
    | ⟨0, _⟩ => show win0_0.index t (0 : Fin 3) * 4 + 1 * i.val = i.val; omega
    | ⟨1, _⟩ => show win0_0.index t (1 : Fin 3) * 512 + 1 * s.val = t.val * 512 + s.val; omega
    | ⟨2, _⟩ => show win0_0.index t (2 : Fin 3) * 1024 + 1 * k.val = k.val; omega
  · intro i s
    show V m c main_v0 (((cfg0.win 1).blk t).view.emb (ix2 i s)) = _
    refine (congrFun (Cert.KernelCover.ids_as_floats m c) _).trans ?_
    show ((((m ((c : Thread nD τ).loc main_arg1) (((cfg0.win 1).blk t).view.emb (ix2 i s))).toInt : ℤ) : ℝ) : EReal) = _
    refine congrArg (fun z => ((((m ((c : Thread nD τ).loc main_arg1) z).toInt : ℤ) : ℝ) : EReal)) ?_
    funext a; apply Fin.ext
    match a with
    | ⟨0, _⟩ => show win0_1.index t (0 : Fin 2) * 4 + 1 * i.val = i.val; omega
    | ⟨1, _⟩ => show win0_1.index t (1 : Fin 2) * 512 + 1 * s.val = t.val * 512 + s.val; omega
  · intro r k
    show V m c main_arg2 (((cfg0.win 2).blk t).view.emb (ix2 r k)) = _
    rw [V_main_arg2, htt]
    refine congrArg (fun z => ((tta z : ℝ) : EReal)) ?_
    funext a; apply Fin.ext
    match a with
    | ⟨0, _⟩ => show win0_2.index t (0 : Fin 2) * 2 + 1 * r.val = r.val; omega
    | ⟨1, _⟩ => show win0_2.index t (1 : Fin 2) * 1024 + 1 * k.val = k.val; omega
  · intro s k
    show V m c main_arg3 (((cfg0.win 3).blk t).view.emb (ix2 s k)) = _
    rw [V_main_arg3, hpos]
    refine congrArg (fun z => ((posa z : ℝ) : EReal)) ?_
    funext a; apply Fin.ext
    match a with
    | ⟨0, _⟩ => show win0_3.index t (0 : Fin 2) * 512 + 1 * s.val = t.val * 512 + s.val; omega
    | ⟨1, _⟩ => show win0_3.index t (1 : Fin 2) * 1024 + 1 * k.val = k.val; omega
  · intro k
    show V m c main_arg4 (((cfg0.win 4).blk t).view.emb (ix1 k)) = _
    rw [V_main_arg4, hg]
    refine congrArg (fun z => ((ga z : ℝ) : EReal)) ?_
    funext a; apply Fin.ext
    match a with
    | ⟨0, _⟩ => show win0_4.index t (0 : Fin 1) * 1024 + 1 * k.val = k.val; omega
  · intro k
    show V m c main_arg5 (((cfg0.win 5).blk t).view.emb (ix1 k)) = _
    rw [V_main_arg5, hb]
    refine congrArg (fun z => ((ba z : ℝ) : EReal)) ?_
    funext a; apply Fin.ext
    match a with
    | ⟨0, _⟩ => show win0_5.index t (0 : Fin 1) * 1024 + 1 * k.val = k.val; omega
  · have hemb : ((cfg0.win 6).blk t).view.emb j = ix3 (j 0) (rowOf t (j 1)) (j 2) := by
      funext a; apply Fin.ext
      match a with
      | ⟨0, _⟩ => show win0_6.index t (0 : Fin 3) * 4 + 1 * (j 0).val = (j 0).val; omega
      | ⟨1, _⟩ => show win0_6.index t (1 : Fin 3) * 512 + 1 * (j 1).val = t.val * 512 + (j 1).val; omega
      | ⟨2, _⟩ => show win0_6.index t (2 : Fin 3) * 1024 + 1 * (j 2).val = (j 2).val; omega
    rw [hemb]
    rfl

/-- THE ARRAY after the run: the four blocks cover it, so it is the result array. -/
theorem final (c : Dev nD) (xa : S4x2048x1024.Idx → ℝ) (tta : S2x1024.Idx → ℝ) (posa : S2048x1024.Idx → ℝ) (ga ba : S1024.Idx → ℝ)
    (hx : ∀ j, m ((c : Thread nD τ).loc main_arg0) j = ((xa j : ℝ) : EReal))
    (htt : ∀ j, m ((c : Thread nD τ).loc main_arg2) j = ((tta j : ℝ) : EReal))
    (hpos : ∀ j, m ((c : Thread nD τ).loc main_arg3) j = ((posa j : ℝ) : EReal))
    (hg : ∀ j, m ((c : Thread nD τ).loc main_arg4) j = ((ga j : ℝ) : EReal))
    (hb : ∀ j, m ((c : Thread nD τ).loc main_arg5) j = ((ba j : ℝ) : EReal)) :
    (dats m 0 c).arrAt 6 cfg0.N = result xa (m ((c : Thread nD τ).loc main_arg1)) tta posa ga ba :=
  (dats m 0 c).arrAt_eq_of_cover 6 (result xa (m ((c : Thread nD τ).loc main_arg1)) tta posa ga ba)
    (fun t _ => flushed_eq m c xa tta posa ga ba hx htt hpos hg hb t) Cert.KernelCover.covered

/-- THE RUN, READ: every weakly fair execution of the kernel program from a memory whose float arguments are real
    ends with the result array at the specification and the arguments unchanged. -/
theorem run (xa : Dev nD → S4x2048x1024.Idx → ℝ) (tta : Dev nD → S2x1024.Idx → ℝ) (posa : Dev nD → S2048x1024.Idx → ℝ)
    (ga ba : Dev nD → S1024.Idx → ℝ)
    (hx : ∀ (c : Dev nD) j, m ((c : Thread nD τ).loc main_arg0) j = ((xa c j : ℝ) : EReal))
    (htt : ∀ (c : Dev nD) j, m ((c : Thread nD τ).loc main_arg2) j = ((tta c j : ℝ) : EReal))
    (hpos : ∀ (c : Dev nD) j, m ((c : Thread nD τ).loc main_arg3) j = ((posa c j : ℝ) : EReal))
    (hg : ∀ (c : Dev nD) j, m ((c : Thread nD τ).loc main_arg4) j = ((ga c j : ℝ) : EReal))
    (hb : ∀ (c : Dev nD) j, m ((c : Thread nD τ).loc main_arg5) j = ((ba c j : ℝ) : EReal)) :
    θ_run defs (onTc (τ := τ) (main (F := Ideal))) ⟨m, fun _ => 0, ρ⟩ fun r => ∀ c : Dev nD,
      r.2.mem ((c : Thread nD τ).loc main_v1)
          = result (xa c) (m ((c : Thread nD τ).loc main_arg1)) (tta c) (posa c) (ga c) (ba c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans
      (final m c (xa c) (tta c) (posa c) (ga c) (ba c) (hx c) (htt c) (hpos c) (hg c) (hb c)), (h c).2⟩)
    (Value.run_blocks m ρ)

end

end Cert.KernelArray

end
-- ==== Proof.ReferenceRows.lean ====
/-
  The reference program read at one index, as the shared real-number specification.

  The reference computes, for every batch entry i and sequence position s, the row
    y k = x[i, s, k] + (o0 · tt[0, k] + o1 · tt[1, k]) + pos[s, k]            (k < 1024)
  where (o0, o1) is the one-hot pair of the id word ids[i, s] ∈ {0, 1}: the ids are flattened to 8192 rows, each
  compared with the column numbers 0 and 1, the comparison bits converted to floats, and the 8192 × 2 one-hot matrix
  multiplied with the 2 × 1024 table.  Row i·2048 + s of the flat arrays is entry (i, s): (i·2048 + s) / 2048 = i,
  (i·2048 + s) % 2048 = s, and likewise ((i·2048 + s)·1024 + k) / 1024 = i·2048 + s with remainder k.  For an id in
  {0, 1} the one-hot product is the table row of the id, t0 + id · (t1 − t0).

  Then mean = (0 + Σ y) / 1024, var = (0 + Σ (y − mean)²) / 1024, and entry w of the result is
    (y w − mean) / √(var + ε) · gamma[w] + beta[w].
  With every input a real number each stage is a real number: the sums are finite sums of reals, the divisions by
  the literal 1024 are products with 1/1024, var + ε is positive (a mean of squares plus a positive ε) so its
  square root is a positive real and the last division is a product with its reciprocal.  This is the two-pass
  layer norm of the row, which equals the one-pass form the specification is stated in.
-/
import proofs.«173393_g56530359550239_cont_9to1_m_589_14_alg».proof.Proof.Gen.ReferenceIdeal.Read
import proofs.«173393_g56530359550239_cont_9to1_m_589_14_alg».proof.Proof.Moments
import proofs.«173393_g56530359550239_cont_9to1_m_589_14_alg».proof.Proof.Literals
import proofs.«173393_g56530359550239_cont_9to1_m_589_14_alg».proof.Proof.LibRealSums
import Idealize.ShloMosaic.Lib.ValueIdx

noncomputable section

namespace Cert.ReferenceRows

open Cert.ReferenceIdeal Cert.ReferenceIdeal.Read Idealize.ShloMosaic Idealize.ShloMosaic.ValueIdx
open scoped BigOperators

/-- The reshape of the flat row index: entry (i, s, w) of the rank-3 array is entry (i·2048 + s, w) of the rank-2 one. -/
theorem idx_v3 (i : Fin 4) (s : Fin 2048) (w : Fin 1024) :
    idx_main_v3 (ix3 i s w) = ix2 (⟨i.val * 2048 + s.val, by omega⟩ : Fin 8192) w := by
  funext a
  refine Fin.ext ?_
  match a with
  | ⟨0, _⟩ => show ((i.val * 2048 + s.val) * 1024 + w.val) / 1024 = i.val * 2048 + s.val; omega
  | ⟨1, _⟩ => show ((i.val * 2048 + s.val) * 1024 + w.val) % 1024 = w.val; omega

theorem lidx_v2 (r : Fin 8192) (w : Fin 1024) (k : Fin 2) : lidx_main_v2 (ix2 r w) k = ix2 r k := by
  funext a
  match a with
  | ⟨0, _⟩ => rfl
  | ⟨1, _⟩ => rfl

theorem ridx_v2 (r : Fin 8192) (w : Fin 1024) (k : Fin 2) : ridx_main_v2 (ix2 r w) k = ix2 k w := by
  funext a
  match a with
  | ⟨0, _⟩ => rfl
  | ⟨1, _⟩ => rfl

/-- The id word a one-hot row reads: row i·2048 + s of the flat ids is entry (i, s). -/
theorem idx_ids (i : Fin 4) (s : Fin 2048) (k : Fin 2) :
    idx_main_v0 (idx_main_call0_v0 (idx_main_call0_v2 (ix2 (⟨i.val * 2048 + s.val, by omega⟩ : Fin 8192) k))) = ix2 i s := by
  funext a
  refine Fin.ext ?_
  match a with
  | ⟨0, _⟩ => show (i.val * 2048 + s.val) / 2048 = i.val; omega
  | ⟨1, _⟩ => show (i.val * 2048 + s.val) % 2048 = s.val; omega

/-- The one-hot entry (row i·2048 + s, column k) as the comparison of the id word with k. -/
theorem onehot_cmp (I : (⟨S4x2048, .i32⟩ : BufTy).Contents (Elt Ideal)) (i : Fin 4) (s : Fin 2048) (k : Fin 2) :
    val_main_v1 (F := Ideal) I (ix2 (⟨i.val * 2048 + s.val, by omega⟩ : Fin 8192) k)
      = (((IntOp.cmpi .eq (I (ix2 i s)) (BitVec.ofNat 32 k.val)).toNat : ℝ) : EReal) := by
  rw [val_main_v1_apply, val_main_call0_v4_apply, val_main_call0_v2_apply, val_main_call0_v0_apply,
    val_main_v0_apply, idx_ids, val_main_call0_v3_apply, val_main_call0_v1_apply]
  rfl

theorem cmp_00 : (IntOp.cmpi .eq (0#32) (BitVec.ofNat 32 (0 : Fin 2).val)).toNat = 1 := by decide
theorem cmp_01 : (IntOp.cmpi .eq (0#32) (BitVec.ofNat 32 (1 : Fin 2).val)).toNat = 0 := by decide
theorem cmp_10 : (IntOp.cmpi .eq (1#32) (BitVec.ofNat 32 (0 : Fin 2).val)).toNat = 0 := by decide
theorem cmp_11 : (IntOp.cmpi .eq (1#32) (BitVec.ofNat 32 (1 : Fin 2).val)).toNat = 1 := by decide

/-- The position row is broadcast over the batch: entry (i, s, k) reads entry (s, k). -/
theorem idx_pos (i : Fin 4) (s : Fin 2048) (k : Fin 1024) :
    idx_main_v5 (idx_main_v6 (ix3 i s k)) = ix2 s k := by
  funext a
  refine Fin.ext ?_
  match a with
  | ⟨0, _⟩ => show ((0 * 2048 + s.val) * 1024 + k.val) / 1024 = s.val; omega
  | ⟨1, _⟩ => show ((0 * 2048 + s.val) * 1024 + k.val) % 1024 = k.val; omega

theorem toInt_zero32 : (0#32 : BitVec 32).toInt = 0 := by decide
theorem toInt_one32 : (1#32 : BitVec 32).toInt = 1 := by decide

section Row

variable (X : (⟨S4x2048x1024, .f32⟩ : BufTy).Contents (Elt Ideal)) (I : (⟨S4x2048, .i32⟩ : BufTy).Contents (Elt Ideal))
  (TT : (⟨S2x1024, .f32⟩ : BufTy).Contents (Elt Ideal)) (POS : (⟨S2048x1024, .f32⟩ : BufTy).Contents (Elt Ideal))
  (x : Fin 4 → Fin 2048 → Fin 1024 → ℝ) (tt : Fin 2 → Fin 1024 → ℝ) (pos : Fin 2048 → Fin 1024 → ℝ)

/-- The real row the layer norm is taken of: input plus position plus the token-type row of the id. -/
def row (i : Fin 4) (s : Fin 2048) (k : Fin 1024) : ℝ :=
  Cert.LayerNorm.rowFma (x i s k) (pos s k) (tt 0 k) (tt 1 k) (((I (ix2 i s)).toInt : ℤ) : ℝ)

/-- The reference's row before normalisation is the real row. -/
theorem v7_eq
    (hX : ∀ i s w, X (ix3 i s w) = ((x i s w : ℝ) : EReal)) (hTT : ∀ r w, TT (ix2 r w) = ((tt r w : ℝ) : EReal))
    (hPOS : ∀ s w, POS (ix2 s w) = ((pos s w : ℝ) : EReal))
    (hI : ∀ i s, I (ix2 i s) = 0#32 ∨ I (ix2 i s) = 1#32)
    (i : Fin 4) (s : Fin 2048) (k : Fin 1024) :
    val_main_v7 (F := Ideal) X I TT POS (ix3 i s k) = ((row I x tt pos i s k : ℝ) : EReal) := by
  rw [val_main_v7_apply, val_main_v4_apply, val_main_v3_apply, idx_v3, val_main_v2_apply, Fin.sum_univ_two,
    lidx_v2, lidx_v2, ridx_v2, ridx_v2, onehot_cmp, onehot_cmp, val_main_v6_apply, val_main_v5_apply, idx_pos,
    hX, hTT, hTT, hPOS]
  simp only [Ideal.addf_def]
  unfold row
  rcases hI i s with h | h
  · rw [h, cmp_00, cmp_01, toInt_zero32, Int.cast_zero, Nat.cast_one, Nat.cast_zero,
      ← Cert.LayerNorm.rowOneHot_id_zero]
    unfold Cert.LayerNorm.rowOneHot
    simp only [← EReal.coe_mul, ← EReal.coe_add]
  · rw [h, cmp_10, cmp_11, toInt_one32, Int.cast_one, Nat.cast_one, Nat.cast_zero,
      ← Cert.LayerNorm.rowOneHot_id_one]
    unfold Cert.LayerNorm.rowOneHot
    simp only [← EReal.coe_mul, ← EReal.coe_add]

end Row

theorem idx_v8 (i : Fin 4) (s : Fin 2048) (k : Fin 1024) : idx_main_v8 (ix2 i s) k = ix3 i s k := by
  funext a
  match a with
  | ⟨0, _⟩ => rfl
  | ⟨1, _⟩ => rfl
  | ⟨2, _⟩ => rfl

theorem idx_v15 (i : Fin 4) (s : Fin 2048) (k : Fin 1024) : idx_main_v15 (ix2 i s) k = ix3 i s k := by
  funext a
  match a with
  | ⟨0, _⟩ => rfl
  | ⟨1, _⟩ => rfl
  | ⟨2, _⟩ => rfl

/-- A row statistic kept with a unit last axis is broadcast along the row. -/
theorem idx_v12 (i : Fin 4) (s : Fin 2048) (w : Fin 1024) : idx_main_v12 (ix3 i s w) = ix3 i s (0 : Fin 1) := by
  funext a
  match a with
  | ⟨0, _⟩ => rfl
  | ⟨1, _⟩ => rfl
  | ⟨2, _⟩ => rfl

theorem idx_v19 (i : Fin 4) (s : Fin 2048) (w : Fin 1024) : idx_main_v19 (ix3 i s w) = ix3 i s (0 : Fin 1) := by
  funext a
  match a with
  | ⟨0, _⟩ => rfl
  | ⟨1, _⟩ => rfl
  | ⟨2, _⟩ => rfl

theorem idx_v24 (i : Fin 4) (s : Fin 2048) (w : Fin 1024) : idx_main_v24 (ix3 i s w) = ix3 i s (0 : Fin 1) := by
  funext a
  match a with
  | ⟨0, _⟩ => rfl
  | ⟨1, _⟩ => rfl
  | ⟨2, _⟩ => rfl

theorem idx_v9 (i : Fin 4) (s : Fin 2048) : idx_main_v9 (ix3 i s (0 : Fin 1)) = ix2 i s := by
  funext a
  match a with
  | ⟨0, _⟩ => rfl
  | ⟨1, _⟩ => rfl

theorem idx_v16 (i : Fin 4) (s : Fin 2048) : idx_main_v16 (ix3 i s (0 : Fin 1)) = ix2 i s := by
  funext a
  match a with
  | ⟨0, _⟩ => rfl
  | ⟨1, _⟩ => rfl

theorem idx_gamma (i : Fin 4) (s : Fin 2048) (w : Fin 1024) : idx_main_v26 (idx_main_v27 (ix3 i s w)) = ix1 w := by
  funext a
  match a with
  | ⟨0, _⟩ => rfl

theorem idx_beta (i : Fin 4) (s : Fin 2048) (w : Fin 1024) : idx_main_v29 (idx_main_v30 (ix3 i s w)) = ix1 w := by
  funext a
  match a with
  | ⟨0, _⟩ => rfl

/-- Division by the literal 1024 is multiplication by its reciprocal. -/
theorem div_1024 (r : ℝ) : Ideal.div ((r : ℝ) : EReal) ((1024 : ℝ) : EReal) = ((r * (1 / 1024) : ℝ) : EReal) := by
  rw [Ideal.div_coe (by norm_num : (1024 : ℝ) ≠ 0), ← EReal.coe_mul]

section Moments

variable (X : (⟨S4x2048x1024, .f32⟩ : BufTy).Contents (Elt Ideal)) (I : (⟨S4x2048, .i32⟩ : BufTy).Contents (Elt Ideal))
  (TT : (⟨S2x1024, .f32⟩ : BufTy).Contents (Elt Ideal)) (POS : (⟨S2048x1024, .f32⟩ : BufTy).Contents (Elt Ideal))
  (y : Fin 4 → Fin 2048 → Fin 1024 → ℝ)

/-- The mean stage: the sum of the row from zero, divided by 1024. -/
theorem v11_eq (h7 : ∀ i s k, val_main_v7 (F := Ideal) X I TT POS (ix3 i s k) = ((y i s k : ℝ) : EReal))
    (i : Fin 4) (s : Fin 2048) :
    val_main_v11 (F := Ideal) X I TT POS (ix3 i s (0 : Fin 1)) = ((Cert.LayerNorm.mean (y i s) : ℝ) : EReal) := by
  rw [val_main_v11_apply, val_main_v9_apply, idx_v9, val_main_v8_apply, val_main_cst_apply, val_main_v10_apply,
    val_main_cst_0_apply, Ideal.ofBits_def, Ideal.ofBits_def, Cert.Literals.ofBits_zero, Cert.Literals.ofBits_1024,
    Ideal.hostDivf_def]
  simp only [idx_v8, h7]
  rw [← Cert.Lib.RealSums.coe_finset_sum, ← EReal.coe_add, zero_add, div_1024]
  rfl

/-- The squared deviation from the mean. -/
theorem v14_eq (h7 : ∀ i s k, val_main_v7 (F := Ideal) X I TT POS (ix3 i s k) = ((y i s k : ℝ) : EReal))
    (i : Fin 4) (s : Fin 2048) (k : Fin 1024) :
    val_main_v14 (F := Ideal) X I TT POS (ix3 i s k)
      = (((y i s k - Cert.LayerNorm.mean (y i s)) * (y i s k - Cert.LayerNorm.mean (y i s)) : ℝ) : EReal) := by
  rw [val_main_v14_apply, val_main_v13_apply, val_main_v12_apply, idx_v12, v11_eq X I TT POS y h7, h7,
    Ideal.subf_def, Ideal.mulf_def, ← EReal.coe_sub, ← EReal.coe_mul]

/-- The variance stage: the sum of the squared deviations from zero, divided by 1024. -/
theorem v18_eq (h7 : ∀ i s k, val_main_v7 (F := Ideal) X I TT POS (ix3 i s k) = ((y i s k : ℝ) : EReal))
    (i : Fin 4) (s : Fin 2048) :
    val_main_v18 (F := Ideal) X I TT POS (ix3 i s (0 : Fin 1))
      = ((Cert.LayerNorm.varCentred (y i s) : ℝ) : EReal) := by
  rw [val_main_v18_apply, val_main_v16_apply, idx_v16, val_main_v15_apply, val_main_cst_1_apply, val_main_v17_apply,
    val_main_cst_2_apply, Ideal.ofBits_def, Ideal.ofBits_def, Cert.Literals.ofBits_zero, Cert.Literals.ofBits_1024,
    Ideal.hostDivf_def]
  simp only [idx_v15, v14_eq X I TT POS y h7]
  rw [← Cert.Lib.RealSums.coe_finset_sum, ← EReal.coe_add, zero_add, div_1024]
  rfl

/-- The standard deviation: the square root of a positive real. -/
theorem v23_eq (h7 : ∀ i s k, val_main_v7 (F := Ideal) X I TT POS (ix3 i s k) = ((y i s k : ℝ) : EReal))
    (i : Fin 4) (s : Fin 2048) :
    val_main_v23 (F := Ideal) X I TT POS (ix3 i s (0 : Fin 1))
      = ((Real.sqrt (Cert.LayerNorm.varCentred (y i s) + Cert.LayerNorm.eps) : ℝ) : EReal) := by
  rw [val_main_v23_apply, val_main_v22_apply, v18_eq X I TT POS y h7, val_main_v21_apply, val_main_cst_3_apply,
    Ideal.ofBits_def, Cert.Literals.ofBits_eps, Ideal.addf_def, ← EReal.coe_add, Ideal.hostUnary_sqrt_def,
    Ideal.sqrt_coe, if_neg (not_lt.2 (le_of_lt (Cert.LayerNorm.varCentred_add_eps_pos (y i s))))]

/-- The normalised entry: the deviation divided by the (nonzero) standard deviation. -/
theorem v25_eq (h7 : ∀ i s k, val_main_v7 (F := Ideal) X I TT POS (ix3 i s k) = ((y i s k : ℝ) : EReal))
    (i : Fin 4) (s : Fin 2048) (w : Fin 1024) :
    val_main_v25 (F := Ideal) X I TT POS (ix3 i s w)
      = (((y i s w - Cert.LayerNorm.mean (y i s))
          * (1 / Real.sqrt (Cert.LayerNorm.varCentred (y i s) + Cert.LayerNorm.eps)) : ℝ) : EReal) := by
  have hne : Real.sqrt (Cert.LayerNorm.varCentred (y i s) + Cert.LayerNorm.eps) ≠ 0 :=
    (Real.sqrt_pos.2 (Cert.LayerNorm.varCentred_add_eps_pos (y i s))).ne'
  rw [val_main_v25_apply, val_main_v20_apply, val_main_v19_apply, idx_v19, v11_eq X I TT POS y h7, h7,
    val_main_v24_apply, idx_v24, v23_eq X I TT POS y h7, Ideal.subf_def, Ideal.hostDivf_def, ← EReal.coe_sub,
    Ideal.div_coe hne, ← EReal.coe_mul]

end Moments

/-- THE REFERENCE AT AN INDEX: entry (i, s, w) of the reference's result is the real layer norm of the row
    input + position + token-type row of the id, scaled by gamma and shifted by beta. -/
theorem ref_eq_out
    (X : (⟨S4x2048x1024, .f32⟩ : BufTy).Contents (Elt Ideal)) (I : (⟨S4x2048, .i32⟩ : BufTy).Contents (Elt Ideal))
    (TT : (⟨S2x1024, .f32⟩ : BufTy).Contents (Elt Ideal)) (POS : (⟨S2048x1024, .f32⟩ : BufTy).Contents (Elt Ideal))
    (G B : (⟨S1024, .f32⟩ : BufTy).Contents (Elt Ideal))
    (x : Fin 4 → Fin 2048 → Fin 1024 → ℝ) (tt : Fin 2 → Fin 1024 → ℝ) (pos : Fin 2048 → Fin 1024 → ℝ)
    (g b : Fin 1024 → ℝ)
    (hX : ∀ i s w, X (ValueIdx.ix3 i s w) = ((x i s w : ℝ) : EReal))
    (hTT : ∀ r w, TT (ValueIdx.ix2 r w) = ((tt r w : ℝ) : EReal))
    (hPOS : ∀ s w, POS (ValueIdx.ix2 s w) = ((pos s w : ℝ) : EReal))
    (hG : ∀ w, G (ValueIdx.ix1 w) = ((g w : ℝ) : EReal)) (hB : ∀ w, B (ValueIdx.ix1 w) = ((b w : ℝ) : EReal))
    (hI : ∀ i s, I (ValueIdx.ix2 i s) = 0#32 ∨ I (ValueIdx.ix2 i s) = 1#32)
    (i : Fin 4) (s : Fin 2048) (w : Fin 1024) :
    Cert.ReferenceIdeal.Read.val_main_v31 (F := Ideal) X I TT POS G B (ValueIdx.ix3 i s w)
      = ((Cert.LayerNorm.out x (fun i s => (((I (ValueIdx.ix2 i s)).toInt : ℤ) : ℝ)) tt pos g b i s w : ℝ) : EReal) := by
  have h7 := v7_eq X I TT POS x tt pos hX hTT hPOS hI
  rw [val_main_v31_apply, val_main_v28_apply, v25_eq X I TT POS (row I x tt pos) h7, val_main_v27_apply,
    val_main_v26_apply, idx_gamma, hG, val_main_v30_apply, val_main_v29_apply, idx_beta, hB, Ideal.mulf_def,
    Ideal.addf_def, ← EReal.coe_mul, ← EReal.coe_add]
  unfold Cert.LayerNorm.out
  rw [← Cert.LayerNorm.twoPass_eq_onePass (Fintype.card_fin 1024)]
  rfl

end Cert.ReferenceRows

end
-- ==== Proof.lean ====
/-
  The kernel and its reference compute the same array over the extended reals.

  Both programs take an input `x : [4, 2048, 1024]`, token-type ids `ids : [4, 2048]`, a two-row table, a position
  table `pos : [2048, 1024]` and two lane vectors γ, β, and return
      LayerNorm(x + table[ids] + pos) · γ + β,        normalised over the last axis with ε = 1e-3.
  The reference looks the table up by a one-hot product, `onehot(ids) · table`, and normalises in two passes
  (mean, then the mean of squared deviations, then a division by the square root).  The kernel looks it up as
  `row0 + float(id) · (row1 − row0)`, takes the variance from the raw moments, `E[y²] − E[y]²`, multiplies by a
  reciprocal square root, and folds scale and shift into one multiply-add; it works on four blocks of 512 sequence
  positions.

  Under the precondition every float input is a real number and every id is 0 or 1 (InputDomain).  Then:
    * for an id in {0, 1} the one-hot product IS `row0 + id · (row1 − row0)`  (Moments: rowOneHot / rowFma);
    * on real rows of 1024 entries the two variances are one number, nonnegative, so variance + ε > 0 and
      `rsqrt` is `1 / sqrt` there; the two affine forms agree by ring laws  (Moments: twoPass_eq_onePass);
    * the kernel's four blocks are blocks of one array and cover the result  (KernelArray, KernelCover).
  So both result arrays are the coercion of one real-valued specification, `Cert.LayerNorm.out` (Moments):
  KernelArray.run states it for the kernel, ReferenceRows.ref_eq_out for the reference.
  Outside {0, 1} the two lookups differ (a one-hot row of an id outside the table is zero), which is why the id
  range is part of the precondition.  The frames are the generated ones; no operation of the kernel was
  rewritten when it was idealized, so that conjunct is trivial.
-/
import proofs.«173393_g56530359550239_cont_9to1_m_589_14_alg».proof.Defs
import proofs.«173393_g56530359550239_cont_9to1_m_589_14_alg».proof.Proof.Gen.Kernel
import proofs.«173393_g56530359550239_cont_9to1_m_589_14_alg».proof.Proof.Gen.Kernel.Skeleton
import proofs.«173393_g56530359550239_cont_9to1_m_589_14_alg».proof.Proof.Gen.Kernel.Launch
import proofs.«173393_g56530359550239_cont_9to1_m_589_14_alg».proof.Proof.Gen.Kernel.Points
import proofs.«173393_g56530359550239_cont_9to1_m_589_14_alg».proof.Proof.Gen.Kernel.Frame
import proofs.«173393_g56530359550239_cont_9to1_m_589_14_alg».proof.Proof.Gen.KernelIdeal
import proofs.«173393_g56530359550239_cont_9to1_m_589_14_alg».proof.Proof.Gen.KernelIdeal.Skeleton
import proofs.«173393_g56530359550239_cont_9to1_m_589_14_alg».proof.Proof.Gen.KernelIdeal.Launch
import proofs.«173393_g56530359550239_cont_9to1_m_589_14_alg».proof.Proof.Gen.KernelIdeal.Points
import proofs.«173393_g56530359550239_cont_9to1_m_589_14_alg».proof.Proof.Gen.KernelIdeal.Frame
import proofs.«173393_g56530359550239_cont_9to1_m_589_14_alg».proof.Proof.Gen.ReferenceIdeal
import proofs.«173393_g56530359550239_cont_9to1_m_589_14_alg».proof.Proof.Gen.Pre_finite_inputs
import proofs.«173393_g56530359550239_cont_9to1_m_589_14_alg».proof.Proof.Gen.KernelIdeal.Value
import proofs.«173393_g56530359550239_cont_9to1_m_589_14_alg».proof.Proof.Gen.ReferenceIdeal.Run
import proofs.«173393_g56530359550239_cont_9to1_m_589_14_alg».proof.Proof.Gen.ReferenceIdeal.Read
import proofs.«173393_g56530359550239_cont_9to1_m_589_14_alg».proof.Proof.InputDomain
import proofs.«173393_g56530359550239_cont_9to1_m_589_14_alg».proof.Proof.KernelArray
import proofs.«173393_g56530359550239_cont_9to1_m_589_14_alg».proof.Proof.ReferenceRows
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the coerced real specification of the (real) argument arrays. -/
theorem algebraic : Cert.algebraic_KernelIdeal_ReferenceIdeal := by
  intro m ρ m' ρ' hpre hagree
  have hdec := fun c => Cert.InputDomain.decode _ _ _ _ _ _ (hpre c)
  choose xa hx using fun c => (hdec c).1
  choose tta htt using fun c => (hdec c).2.1
  choose posa hpos using fun c => (hdec c).2.2.1
  choose ga hg using fun c => (hdec c).2.2.2.1
  choose ba hb using fun c => (hdec c).2.2.2.2.1
  have hid := fun c => (hdec c).2.2.2.2.2
  refine ⟨fun c => Cert.KernelArray.result (xa c)
      (m ((c.tc : Thread Cert.KernelIdeal.nD Cert.KernelIdeal.τ).loc Cert.KernelIdeal.main_arg1)) (tta c) (posa c) (ga c) (ba c),
    Cert.KernelArray.run m ρ xa tta posa ga ba hx htt hpos hg hb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2]
  funext j
  have e := Cert.ReferenceRows.ref_eq_out _ _ _ _ _ _ (fun i s k => xa c (ix3 i s k)) (fun r k => tta c (ix2 r k))
    (fun s k => posa c (ix2 s k)) (fun k => ga c (ix1 k)) (fun k => ba c (ix1 k))
    (fun i s w => hx c (ix3 i s w)) (fun r w => htt c (ix2 r w)) (fun s w => hpos c (ix2 s w)) (fun w => hg c (ix1 w))
    (fun w => hb c (ix1 w)) (fun i s => hid c (ix2 i s)) (j 0) (j 1) (j 2)
  exact (congrArg (Cert.ReferenceIdeal.Read.val_main_v31 (F := Ideal) _ _ _ _ _ _) (eq_ix3 j)).trans e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
